-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S352256 : Shape := ⟨1, ![352256]⟩
abbrev S11008x4096 : Shape := ⟨2, ![11008, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S352256 : S_.BroadcastsInDim S352256 (![] : Fin 0 → Fin S352256.rank)
  reducesTo_S352256_S_d0 : S352256.ReducesTo [0] S_

variable [Facts]

def fn {F : FTy → Type} [FloatOps F] (main_arg0 : FVec F S32x4096 .f32) (main_arg1 : FVec F S352256 .f32) (main_arg2 : IVec S11008x4096 32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S352256 .f32 := Host.absf main_arg1
  let main_cst_0 : FVec F S_ .f32 := constant S_ .f32 0x7F800000#32
  let main_v5 : FVec F S352256 .f32 := broadcastInDim S352256 ![] bcast_S_S352256 main_cst_0
  let main_v6 : IVec S352256 1 := cmpf .olt main_v4 main_v5
  let main_c_1 : IVec S_ 1 := constantI S_ 1 1#1
  let main_v7 : IVec S_ 1 := (fun x v => Host.reduce IntOp.andi x v reducesTo_S352256_S_d0 h_S_) main_v6 main_c_1
  let main_v8 : IVec S_ 1 := andi main_v3 main_v7
  main_v8
-- ==== Kernel.lean ====
abbrev S32x4096 : Shape := ⟨2, ![32, 4096]⟩
abbrev S352256 : Shape := ⟨1, ![352256]⟩
abbrev S11008x4096 : Shape := ⟨2, ![11008, 4096]⟩
abbrev S11008x32 : Shape := ⟨2, ![11008, 32]⟩
abbrev S32x11008 : Shape := ⟨2, ![32, 11008]⟩
abbrev S256x4096 : Shape := ⟨2, ![256, 4096]⟩
abbrev S256x32 : Shape := ⟨2, ![256, 32]⟩
abbrev S32x256 : Shape := ⟨2, ![32, 256]⟩
abbrev S256x32x128 : Shape := ⟨3, ![256, 32, 128]⟩
abbrev S256x32x1 : Shape := ⟨3, ![256, 32, 1]⟩

abbrev nBuf : Space → Nat
  | .hbm => 6
  | .vmem => 7
  | .smem => 0
  | _ => 0

abbrev bufTy : (tb : Table) → Fin (tcTables nBuf tb) → BufTy
  | .hbm, ⟨0, _⟩ => ⟨S32x4096, .f32⟩
  | .hbm, ⟨1, _⟩ => ⟨S352256, .f32⟩
  | .hbm, ⟨2, _⟩ => ⟨S11008x4096, .i32⟩
  | .hbm, ⟨3, _⟩ => ⟨S11008x32, .f32⟩
  | .hbm, ⟨4, _⟩ => ⟨S32x4096, .bf16⟩
  | .hbm, ⟨5, _⟩ => ⟨S32x11008, .f32⟩
  | .local _ .vmem, ⟨0, _⟩ => ⟨S32x4096, .bf16⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S32x256, .f32⟩
  | .local _ .vmem, ⟨6, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S352256_S11008x32 : S352256.ShapeCasts S11008x32
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S32x256_S32x256_0_0 : ∀ a, (![0, 0] : Fin 2 → Nat) a + S32x256.size a ≤ S32x256.size a
  h_S32x256 : 0 < S32x256.numel
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .bf16 = 32 ∨ (Rect.block (s := S32x4096) S32x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_v1) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S352256 : Shape := ⟨1, ![352256]⟩
abbrev S11008x4096 : Shape := ⟨2, ![11008, 4096]⟩
abbrev S11008x32x128 : Shape := ⟨3, ![11008, 32, 128]⟩
abbrev S11008x32 : Shape := ⟨2, ![11008, 32]⟩
abbrev S11008x32x1 : Shape := ⟨3, ![11008, 32, 1]⟩
abbrev S4096x11008 : Shape := ⟨2, ![4096, 11008]⟩
abbrev S32x11008 : Shape := ⟨2, ![32, 11008]⟩

abbrev nBuf : Space → Nat
  | .hbm => 12
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S352256, .f32⟩
  | .hbm, ⟨2, _⟩ => ⟨S11008x4096, .i32⟩
  | .hbm, ⟨3, _⟩ => ⟨S11008x4096, .f32⟩
  | .hbm, ⟨4, _⟩ => ⟨S11008x32x128, .f32⟩
  | .hbm, ⟨5, _⟩ => ⟨S11008x32, .f32⟩
  | .hbm, ⟨6, _⟩ => ⟨S11008x32x1, .f32⟩
  | .hbm, ⟨7, _⟩ => ⟨S11008x32x128, .f32⟩
  | .hbm, ⟨8, _⟩ => ⟨S11008x32x128, .f32⟩
  | .hbm, ⟨9, _⟩ => ⟨S11008x4096, .f32⟩
  | .hbm, ⟨10, _⟩ => ⟨S4096x11008, .f32⟩
  | .hbm, ⟨11, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S11008x4096_S11008x32x128 : S11008x4096.ShapeCasts S11008x32x128
  shapeCasts_S352256_S11008x32 : S352256.ShapeCasts S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.Spec.lean ====
/-
  What both programs compute, as ONE function of the three argument arrays.

  A weight matrix of 11008 output rows and 4096 input features is stored as a sign per entry (an integer array) and
  one scale per GROUP of 128 consecutive input features of a row; the scales of all rows lie one row after the other
  in a flat vector of 11008 · 32 = 352256 entries, so the scale of entry (o, k) sits at position 32 · o + k / 128.
  The dequantized weight is  w(o, k) = sign(o, k) · scale(32 · o + k / 128),  the integer sign read as the real
  number it is, and the result is the linear map  y(b, o) = Σ_k x(b, k) · w(o, k)  over the 4096 input features:
  a finite sum of products of extended reals, in which no term is rearranged, so nothing here asks the entries
  to be finite.
-/
import Idealize.ShloMosaic.PureOps.Ideal
import Idealize.ShloMosaic.Lib.ValueIdx

noncomputable section

namespace Cert.BitLinear

open Idealize.ShloMosaic Idealize.ShloMosaic.ValueIdx

/-- The group of an input feature: 128 consecutive features of a row share one scale. -/
def group (k : Fin 4096) : Fin 32 := ⟨k.val / 128, by have := k.isLt; omega⟩

/-- Where, in the flat vector of scales, the scale of entry `(o, k)` lies: the rows' scales follow one another,
    32 groups to a row. -/
def scalePos (o : Fin 11008) (k : Fin 4096) : Fin 352256 :=
  ⟨o.val * 32 + k.val / 128, by have := o.isLt; have := k.isLt; omega⟩

/-- The dequantized weight: the sign of the entry, as the real number the integer is, times its group's scale. -/
def weight (scales : (⟨1, ![352256]⟩ : Shape).Idx → EReal) (signs : (⟨2, ![11008, 4096]⟩ : Shape).Idx → BitVec 32)
    (o : Fin 11008) (k : Fin 4096) : EReal :=
  (((signs (ix2 o k)).toInt : ℝ) : EReal) * scales (ix1 (scalePos o k))

/-- The linear map with the dequantized weights: entry `(b, o)` of the result is the sum over the input features
    `k` of `x(b, k) · w(o, k)`. -/
def linear (x : (⟨2, ![32, 4096]⟩ : Shape).Idx → EReal) (scales : (⟨1, ![352256]⟩ : Shape).Idx → EReal)
    (signs : (⟨2, ![11008, 4096]⟩ : Shape).Idx → BitVec 32) : (⟨2, ![32, 11008]⟩ : Shape).Idx → EReal :=
  fun i => ∑ k : Fin 4096, x (ix2 (i 0) k) * weight scales signs (i 1) k

/-- The linear map at entry `(b, o)`, spelt out. -/
theorem linear_apply (x : (⟨2, ![32, 4096]⟩ : Shape).Idx → EReal) (scales : (⟨1, ![352256]⟩ : Shape).Idx → EReal)
    (signs : (⟨2, ![11008, 4096]⟩ : Shape).Idx → BitVec 32) (b : Fin 32) (o : Fin 11008) :
    linear x scales signs (ix2 b o) = ∑ k : Fin 4096, x (ix2 b k) * weight scales signs o k := rfl

end Cert.BitLinear

end
-- ==== Proof.RefLinear.lean ====
/-
  The reference computes the linear map of Spec.lean.

  Its nine operations, read at an index: the integer signs become reals, are viewed in groups of 128 along a row,
  the flat scales are viewed 32 to a row and repeated along each group, the two are multiplied, the product is viewed
  as a matrix again, transposed, and contracted with `x` over the 4096 input features. Entry `(b, o)` of the result is
  therefore the sum over `k` of `x(b, k)` times the transposed product at `(k, o)`, which is the product at `(o, k)`:
  the sign at `(o, k)` times the scale of group `k / 128` of row `o`, at position `32 · o + k / 128` of the flat vector.
  Only the positions need an argument: row-major position `4096 · o + k` of the matrix is position
  `128 · (32 · o + k / 128) + k % 128` of the grouped view.
-/
import proofs.«118095_j47141561041541_2_alg».proof.Proof.Gen.ReferenceIdeal.Read
import proofs.«118095_j47141561041541_2_alg».proof.Proof.Spec

noncomputable section

namespace Cert.ReferenceIdeal.RefValue

open Cert.ReferenceIdeal Cert.ReferenceIdeal.Read Idealize.ShloMosaic Idealize.ShloMosaic.ValueIdx Cert.BitLinear

/-- Through the transpose, the regrouping and back, entry `(k, o)` of the transposed weights is read at entry
    `(o, k)` of the signs. -/
theorem sign_index (i : S32x11008.Idx) (k : Fin 4096) :
    idx_main_v1 (idx_main_v6 (idx_main_v7 (ridx_main_v8 i k))) = ix2 (i 1) k := by
  have ho : (i 1).val < 11008 := (i 1).isLt
  have hk : k.val < 4096 := k.isLt
  funext a; apply Fin.ext
  match a with
  | ⟨0, _⟩ =>
    show ((((i 1).val * 4096 + k.val) / 4096 * 32 + ((i 1).val * 4096 + k.val) / 128 % 32) * 128
      + ((i 1).val * 4096 + k.val) % 128) / 4096 = (i 1).val
    omega
  | ⟨1, _⟩ =>
    show ((((i 1).val * 4096 + k.val) / 4096 * 32 + ((i 1).val * 4096 + k.val) / 128 % 32) * 128
      + ((i 1).val * 4096 + k.val) % 128) % 4096 = k.val
    omega

/-- And at the scale of group `k / 128` of row `o`, in the flat vector of scales. -/
theorem scale_index (i : S32x11008.Idx) (k : Fin 4096) :
    idx_main_v2 (idx_main_v3 (idx_main_v4 (idx_main_v6 (idx_main_v7 (ridx_main_v8 i k))))) = ix1 (scalePos (i 1) k) := by
  have ho : (i 1).val < 11008 := (i 1).isLt
  have hk : k.val < 4096 := k.isLt
  funext a; apply Fin.ext
  match a with
  | ⟨0, _⟩ =>
    show ((i 1).val * 4096 + k.val) / 4096 * 32 + ((i 1).val * 4096 + k.val) / 128 % 32 = (i 1).val * 32 + k.val / 128
    omega

/-- The left operand of the contraction is read at `(b, k)`. -/
theorem x_index (i : S32x11008.Idx) (k : Fin 4096) : lidx_main_v8 i k = ix2 (i 0) k :=
  funext fun a => Fin.ext (by match a with | ⟨0, _⟩ => rfl | ⟨1, _⟩ => rfl)

/-- The reference's result is the linear map with the dequantized weights. -/
theorem reference_eq_linear (x0 : (⟨S32x4096, .f32⟩ : BufTy).Contents (Elt Ideal))
    (x1 : (⟨S352256, .f32⟩ : BufTy).Contents (Elt Ideal)) (x2 : (⟨S11008x4096, .i32⟩ : BufTy).Contents (Elt Ideal)) :
    val_main_v8 (F := Ideal) x0 x1 x2 = linear x0 x1 x2 := by
  funext i
  rw [val_main_v8_apply]
  refine Finset.sum_congr rfl fun k _ => ?_
  rw [val_main_v7_apply, val_main_v6_apply, val_main_v5_apply, val_main_v1_apply, val_main_v0_apply,
    val_main_v4_apply, val_main_v3_apply, val_main_v2_apply, sign_index, scale_index, x_index]
  rfl

end Cert.ReferenceIdeal.RefValue

end
-- ==== Proof.TileValue.lean ====
/-
  What one grid point computes: a tile of 256 output rows.

  The body loads the whole of `x` (32 × 4096), a tile of 256 rows of signs (256 × 4096) and those rows' scales
  (256 × 32), turns the signs into reals, views them in groups of 128 along a row, repeats each scale along its group,
  multiplies, views the product as a 256 × 4096 matrix again, and contracts it with `x` over the 4096 input features into a
  zero accumulator. So entry `(b, r)` of what it stores is the sum over `k` of `x(b, k)` times the sign at `(r, k)` times
  the scale of group `k / 128` of row `r`. The changes of number format in between are the identity on extended reals.
  Row-major position `4096 · r + k` of the tile is position `128 · (32 · r + k / 128) + k % 128` of its grouped view.
-/
import proofs.«118095_j47141561041541_2_alg».proof.Proof.Gen.KernelIdeal.Skeleton
import proofs.«118095_j47141561041541_2_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.BitLinear

/-- An input feature's place inside its group of 128. -/
def lane (k : Fin 4096) : Fin 128 := ⟨k.val % 128, Nat.mod_lt _ (by decide)⟩

/-- The tile of dequantized weights the body forms from a tile of signs and of scales. -/
abbrev dequant (v2 : Vec Ideal S256x4096 .i32) (v3 : Vec Ideal S256x32 .f32) : FVec Ideal S256x4096 .bf16 :=
  shapeCast S256x4096
    (mulf (shapeCast S256x32x128 (sitofp (F := Ideal) .bf16 v2) shapeCasts_S256x4096_S256x32x128)
      (broadcastTo S256x32x128
        (shapeCast S256x32x1 (truncf .bf16 (shapeCast S256x32 v3 shapeCasts_S256x32_S256x32) bitsLt_bf16_f32)
          shapeCasts_S256x32_S256x32x1)
        broadcasts_S256x32x1_S256x32x128))
    shapeCasts_S256x32x128_S256x4096

/-- Entry `(r, k)` of the dequantized tile: the sign there times the scale of the entry's group. -/
theorem dequant_apply (v2 : Vec Ideal S256x4096 .i32) (v3 : Vec Ideal S256x32 .f32) (r : Fin 256) (k : Fin 4096) :
    dequant v2 v3 (ix2 r k) = (((v2 (ix2 r k)).toInt : ℝ) : EReal) * v3 (ix2 r (group k)) := by
  have hr : r.val < 256 := r.isLt
  have hk : k.val < 4096 := k.isLt
  refine (shapeCast_apply _ shapeCasts_S256x32x128_S256x4096 (ix2 r k) (ix3 r (group k) (lane k)) ?_).trans ?_
  · rewrite [Shape.rowMajor_val_three, Shape.rowMajor_val_two]
    show (r.val * 32 + k.val / 128) * 128 + k.val % 128 = r.val * 4096 + k.val
    omega
  refine (mulf_apply _ _ _).trans ?_
  have hs : (shapeCast S256x32x128 (sitofp (F := Ideal) .bf16 v2) shapeCasts_S256x4096_S256x32x128 : FVec Ideal S256x32x128 .bf16)
      (ix3 r (group k) (lane k)) = (((v2 (ix2 r k)).toInt : ℝ) : EReal) := by
    refine (shapeCast_apply _ shapeCasts_S256x4096_S256x32x128 (ix3 r (group k) (lane k)) (ix2 r k) ?_).trans rfl
    rewrite [Shape.rowMajor_val_two, Shape.rowMajor_val_three]
    show r.val * 4096 + k.val = (r.val * 32 + k.val / 128) * 128 + k.val % 128
    omega
  have hc : (broadcastTo S256x32x128
        (shapeCast S256x32x1 (truncf .bf16 (shapeCast S256x32 v3 shapeCasts_S256x32_S256x32) bitsLt_bf16_f32)
          shapeCasts_S256x32_S256x32x1)
        broadcasts_S256x32x1_S256x32x128 : FVec Ideal S256x32x128 .bf16) (ix3 r (group k) (lane k)) = v3 (ix2 r (group k)) := by
    refine (broadcastTo_apply _ broadcasts_S256x32x1_S256x32x128 (ix3 r (group k) (lane k)) (ix3 r (group k) (0 : Fin 1)) ?_).trans ?_
    · intro a
      match a with
      | ⟨0, _⟩ => show r.val = if (256 : Nat) = 1 then 0 else r.val; rw [if_neg (by decide)]
      | ⟨1, _⟩ => show (group k).val = if (32 : Nat) = 1 then 0 else (group k).val; rw [if_neg (by decide)]
      | ⟨2, _⟩ => show 0 = if (1 : Nat) = 1 then 0 else (lane k).val; rw [if_pos rfl]
    refine (shapeCast_apply _ shapeCasts_S256x32_S256x32x1 (ix3 r (group k) (0 : Fin 1)) (ix2 r (group k)) ?_).trans ?_
    · rewrite [Shape.rowMajor_val_two, Shape.rowMajor_val_three]
      show r.val * 32 + (group k).val = (r.val * 32 + (group k).val) * 1 + 0
      omega
    rw [truncf_apply, shapeCast_self]
  rw [hs, hc]

/-- The body's one stored value is the contraction of `x` with the dequantized tile into a zero accumulator. -/
theorem payload_eq (v0 : Vec Ideal S32x4096 .bf16) (v2 : Vec Ideal S256x4096 .i32) (v3 : Vec Ideal S256x32 .f32) :
    k0_pay1 (F := Ideal) v0 v2 v3
      = matmul dot_S32x4096_S256x4096_S32x256_1_1_0_0_n_n none (shapeCast S32x4096 v0 shapeCasts_S32x4096_S32x4096 : FVec Ideal S32x4096 .bf16) (dequant v2 v3)
          (constant (F := Ideal) S32x256 .f32 0x00000000#32) := rfl

/-! The contraction's operand indices: it contracts axis 1 of both operands; the left operand's axis 0 is the
    result's axis 0, the right operand's axis 0 the result's axis 1. -/

theorem lhs_0 (j : S32x256.Idx) (q : dot_S32x4096_S256x4096_S32x256_1_1_0_0_n_n.contr.Idx) : (dot_S32x4096_S256x4096_S32x256_1_1_0_0_n_n.lhsIdx j q 0).val = (j 0).val := by
  unfold DotDims.lhsIdx
  rw [dif_neg (show ¬(0 : Fin S32x4096.rank) ∈ dot_S32x4096_S256x4096_S32x256_1_1_0_0_n_n.lhsBatch by decide), dif_pos (show (0 : Fin S32x4096.rank) ∈ dot_S32x4096_S256x4096_S32x256_1_1_0_0_n_n.lhsNonContracting by decide)]
  rfl
theorem lhs_1 (j : S32x256.Idx) (q : dot_S32x4096_S256x4096_S32x256_1_1_0_0_n_n.contr.Idx) : (dot_S32x4096_S256x4096_S32x256_1_1_0_0_n_n.lhsIdx j q 1).val = (q ⟨0, by decide⟩).val :=
  dot_S32x4096_S256x4096_S32x256_1_1_0_0_n_n.lhsIdx_val_of_single rfl j q
theorem rhs_0 (j : S32x256.Idx) (q : dot_S32x4096_S256x4096_S32x256_1_1_0_0_n_n.contr.Idx) : (dot_S32x4096_S256x4096_S32x256_1_1_0_0_n_n.rhsIdx j q 0).val = (j 1).val := by
  unfold DotDims.rhsIdx
  rw [dif_neg (show ¬(0 : Fin S256x4096.rank) ∈ dot_S32x4096_S256x4096_S32x256_1_1_0_0_n_n.rhsBatch by decide), dif_pos (show (0 : Fin S256x4096.rank) ∈ dot_S32x4096_S256x4096_S32x256_1_1_0_0_n_n.rhsNonContracting by decide)]
  rfl
theorem rhs_1 (j : S32x256.Idx) (q : dot_S32x4096_S256x4096_S32x256_1_1_0_0_n_n.contr.Idx) : (dot_S32x4096_S256x4096_S32x256_1_1_0_0_n_n.rhsIdx j q 1).val = (q ⟨0, by decide⟩).val :=
  dot_S32x4096_S256x4096_S32x256_1_1_0_0_n_n.rhsIdx_val_of_single rfl j q

/-- Entry `(b, r)` of what the body stores: the sum over the input features of `x(b, k)` times the dequantized
    weight of row `r` of the tile. -/
theorem payload_apply (v0 : Vec Ideal S32x4096 .bf16) (v2 : Vec Ideal S256x4096 .i32) (v3 : Vec Ideal S256x32 .f32)
    (b : Fin 32) (r : Fin 256) :
    k0_pay1 (F := Ideal) v0 v2 v3 (ix2 b r)
      = ∑ k : Fin 4096, v0 (ix2 b k) * ((((v2 (ix2 r k)).toInt : ℝ) : EReal) * v3 (ix2 r (group k))) := by
  rw [payload_eq]
  simp only [matmul]
  rw [Ideal.matmul_constant_zero_apply, ← Equiv.sum_comp (contrEquiv1 dot_S32x4096_S256x4096_S32x256_1_1_0_0_n_n 4096 rfl rfl).symm]
  refine Finset.sum_congr rfl fun k _ => ?_
  have hk := contrEquiv1_symm_val dot_S32x4096_S256x4096_S32x256_1_1_0_0_n_n 4096 rfl rfl k
  have el : dot_S32x4096_S256x4096_S32x256_1_1_0_0_n_n.lhsIdx (ix2 b r) ((contrEquiv1 dot_S32x4096_S256x4096_S32x256_1_1_0_0_n_n 4096 rfl rfl).symm k) = ix2 b k := funext fun a => Fin.ext (by
    match a with
    | ⟨0, _⟩ => exact lhs_0 _ _
    | ⟨1, _⟩ => exact (lhs_1 _ _).trans hk)
  have er : dot_S32x4096_S256x4096_S32x256_1_1_0_0_n_n.rhsIdx (ix2 b r) ((contrEquiv1 dot_S32x4096_S256x4096_S32x256_1_1_0_0_n_n 4096 rfl rfl).symm k) = ix2 r k := funext fun a => Fin.ext (by
    match a with
    | ⟨0, _⟩ => exact rhs_0 _ _
    | ⟨1, _⟩ => exact (rhs_1 _ _).trans hk)
  rw [el, er, shapeCast_self, dequant_apply]

end Cert.KernelIdeal.Tile

end
-- ==== Proof.WholeValue.lean ====
/-
  From the 43 tiles to the whole result.

  The grid has 43 points; point `t` works on output rows `256 · t … 256 · t + 255`: it is handed the whole of `x`
  (as the host left it after the change of number format, the identity on extended reals), rows `256 · t …` of the
  signs and of the scales (the flat scale vector viewed 32 to a row by the host), and writes back columns
  `256 · t …` of the 32 × 11008 result. What it writes is, by TileValue.lean, the linear map of Spec.lean at those
  columns; the 43 column blocks tile the result (column `o` belongs to point `o / 256`), so the result array ends
  holding the linear map of the argument arrays.
-/
import proofs.«118095_j47141561041541_2_alg».proof.Proof.Gen.KernelIdeal.Value
import proofs.«118095_j47141561041541_2_alg».proof.Proof.TileValue
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Tile Cert.BitLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The two arrays the host prepares -/

/-- When the grid starts, the first operand's array is `x` after the change of number format. -/
theorem entry_x (c : Dev nD) :
    (V m c main_v1 : FVec Ideal S32x4096 .bf16)
      = (truncf .bf16 ((m ((c : Thread nD τ).loc main_arg0)) : FVec Ideal S32x4096 .f32) bitsLt_bf16_f32 : FVec Ideal S32x4096 .bf16) := by
  dsimp only [Gen.V, Gen.hostOps0]; after_results <;> rfl

/-- And the third operand's array is the flat vector of scales viewed 32 to a row. -/
theorem entry_scales (c : Dev nD) :
    (V m c main_v0 : FVec Ideal S11008x32 .f32)
      = (shapeCast S11008x32 ((m ((c : Thread nD τ).loc main_arg1)) : FVec Ideal S352256 .f32) shapeCasts_S352256_S11008x32 : FVec Ideal S11008x32 .f32) := by
  dsimp only [Gen.V, Gen.hostOps0]; after_results <;> rfl

/-! ## Which block each operand hands to a point -/

/-- The four block index maps over the grid: `x` is handed whole at every point, the signs and the scales by
    blocks of rows, the result by blocks of columns, block `t` at point `t`. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- Every point is handed `x` itself. -/
theorem x_block (c : Dev nD) (t : Fin cfg0.N) (y : S32x4096.Idx) :
    (iblk m c 0 t : Vec Ideal S32x4096 .bf16) y = ((m ((c : Thread nD τ).loc main_arg0)) : S32x4096.Idx → EReal) y := by
  obtain ⟨e0, e1, -⟩ := block_index t
  unfold iblk
  rw [View.read_apply]
  show V m c main_v1 _ = _
  rw [entry_x]
  show ((m ((c : Thread nD τ).loc main_arg0)) : FVec Ideal S32x4096 .f32) (((cfg0.win 0).blk t).view.emb y) = _
  congr 1
  funext a
  apply Fin.ext
  match a with
  | ⟨0, _⟩ => show win0_0.index t 0 * 32 + 1 * (y 0).val = (y 0).val; rw [e0]; omega
  | ⟨1, _⟩ => show win0_0.index t 1 * 4096 + 1 * (y 1).val = (y 1).val; rw [e1]; omega

/-- Row `r` of the signs handed to point `t` is row `256 · t + r` of the signs. -/
theorem signs_block (c : Dev nD) (t : Fin cfg0.N) (r : Fin 256) (k : Fin 4096) (o : Fin 11008)
    (ho : o.val = t.val * 256 + r.val) :
    (iblk m c 1 t : Vec Ideal S256x4096 .i32) (ix2 r k) = ((m ((c : Thread nD τ).loc main_arg2)) : S11008x4096.Idx → BitVec 32) (ix2 o k) := by
  obtain ⟨-, -, e2, e3, -⟩ := block_index t
  unfold iblk
  rw [View.read_apply]
  show V m c main_arg2 _ = _
  rw [V_main_arg2]
  congr 1
  funext a
  apply Fin.ext
  match a with
  | ⟨0, _⟩ => show win0_1.index t 0 * 256 + 1 * r.val = o.val; rw [e2, ho]; omega
  | ⟨1, _⟩ => show win0_1.index t 1 * 4096 + 1 * k.val = k.val; rw [e3]; omega

/-- Row `r` of the scales handed to point `t` is the stretch of the flat vector that belongs to row `256 · t + r`. -/
theorem scales_block (c : Dev nD) (t : Fin cfg0.N) (r : Fin 256) (k : Fin 4096) (o : Fin 11008)
    (ho : o.val = t.val * 256 + r.val) :
    (iblk m c 2 t : Vec Ideal S256x32 .f32) (ix2 r (group k)) = ((m ((c : Thread nD τ).loc main_arg1)) : S352256.Idx → EReal) (ix1 (scalePos o k)) := by
  obtain ⟨-, -, -, -, e4, e5, -⟩ := block_index t
  have hk : k.val < 4096 := k.isLt
  unfold iblk
  rw [View.read_apply]
  show V m c main_v0 _ = _
  rw [entry_scales]
  refine (shapeCast_apply _ shapeCasts_S352256_S11008x32 _ (ix1 (scalePos o k)) ?_).trans rfl
  rewrite [Shape.rowMajor_val_one, Shape.rowMajor_val_two]
  show o.val * 32 + k.val / 128 = (win0_2.index t 0 * 256 + 1 * r.val) * 32 + (win0_2.index t 1 * 32 + 1 * (k.val / 128))
  rw [e4, e5, ho]; omega

/-! ## What a point writes back -/

/-- Entry `j` of what point `t` stores is the linear map at row `j 0` and column `256 · t + j 1`. -/
theorem tile_eq (c : Dev nD) (t : Fin cfg0.N) (j : S32x256.Idx) (i : S32x11008.Idx)
    (h0 : (i 0).val = (j 0).val) (h1 : (i 1).val = t.val * 256 + (j 1).val) :
    k0_pay1 (F := Ideal) (iblk m c 0 t) (iblk m c 1 t) (iblk m c 2 t) j = linear (m ((c : Thread nD τ).loc main_arg0)) (m ((c : Thread nD τ).loc main_arg1)) (m ((c : Thread nD τ).loc main_arg2)) i := by
  obtain ⟨p, q, rfl⟩ : ∃ (p : Fin 32) (q : Fin 256), j = ix2 p q := ⟨j 0, j 1, eq_ix2 j⟩
  obtain ⟨b, o, rfl⟩ : ∃ (b : Fin 32) (o : Fin 11008), i = ix2 b o := ⟨i 0, i 1, eq_ix2 i⟩
  obtain rfl : b = p := Fin.ext h0
  have ho : o.val = t.val * 256 + q.val := h1
  refine (payload_apply (iblk m c 0 t) (iblk m c 1 t) (iblk m c 2 t) b q).trans ?_
  refine Eq.trans ?_ (linear_apply _ _ _ b o).symm
  refine Finset.sum_congr rfl fun k _ => ?_
  rw [x_block m c t (ix2 b k), signs_block m c t q k o ho, scales_block m c t q k o ho]
  rfl

/-- Point `t` writes back block `t` of the linear map of the argument arrays. -/
theorem flushed_eq (c : Dev nD) (t : Fin cfg0.N) :
    (dats m 0 c).flushed 3 t = ((cfg0.win 3).blk t).view.read (Elt Ideal) (linear (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S32x4096) hz, View.ld_unit_zero (S := S256x4096) hz, View.ld_unit_zero (S := S256x32) hz]
  obtain ⟨-, -, -, -, -, -, e6, e7⟩ := block_index t
  funext j
  show k0_pay1 (F := Ideal) (iblk m c 0 t) (iblk m c 1 t) (iblk m c 2 t) j
    = linear (m ((c : Thread nD τ).loc main_arg0)) (m ((c : Thread nD τ).loc main_arg1)) (m ((c : Thread nD τ).loc main_arg2)) (((cfg0.win 3).blk t).view.emb j)
  refine tile_eq m c t j _ ?_ ?_
  · show win0_3.index t 0 * 32 + 1 * (j 0).val = (j 0).val; rw [e6]; omega
  · show win0_3.index t 1 * 256 + 1 * (j 1).val = t.val * 256 + (j 1).val; rw [e7]; omega

/-! ## The 43 column blocks tile the result -/

/-- An index of the result lies in point `t`'s block iff each coordinate lies in the block's range. -/
theorem mem_block (t : Fin cfg0.N) (i : S32x11008.Idx) :
    i ∈ ((cfg0.win 3).blk t).view.set ↔ ∀ a : Fin 2, win0_3.index t a * S32x256.size a ≤ (i a).val ∧ (i a).val < win0_3.index t a * S32x256.size a + S32x256.size a := by
  show i ∈ ((View.whole main_v2).slice (win0_3.rect t)).set ↔ _
  rw [View.set_slice_whole, Rect.mem_set_unit]
  exact Iff.rfl

/-- Column `o` of the result belongs to point `o / 256`. -/
theorem cover (i : S32x11008.Idx) : ∃ t : Fin cfg0.N, (cfg0.win 3).flush t = true ∧ i ∈ ((cfg0.win 3).blk t).view.set := by
  have hi0 : (i 0).val < 32 := (i 0).isLt
  have hi1 : (i 1).val < 11008 := (i 1).isLt
  obtain ⟨t, ht⟩ : ∃ t : Fin cfg0.N, t.val = (i 1).val / 256 :=
    ⟨⟨(i 1).val / 256, by show _ < grid0.N; rw [N_0]; omega⟩, rfl⟩
  obtain ⟨-, -, -, -, -, -, e6, e7⟩ := block_index t
  refine ⟨t, flush0_3 t, ?_⟩
  rw [mem_block]
  intro a
  match a with
  | ⟨0, _⟩ => show win0_3.index t 0 * 32 ≤ (i 0).val ∧ (i 0).val < win0_3.index t 0 * 32 + 32; rw [e6]; omega
  | ⟨1, _⟩ => show win0_3.index t 1 * 256 ≤ (i 1).val ∧ (i 1).val < win0_3.index t 1 * 256 + 256; rw [e7, ht]; omega

/-- So after the grid the result array is the linear map of the argument arrays. -/
theorem final (c : Dev nD) : (dats m 0 c).arrAt 3 cfg0.N = linear (m ((c : Thread nD τ).loc main_arg0)) (m ((c : Thread nD τ).loc main_arg1)) (m ((c : Thread nD τ).loc main_arg2)) :=
  (dats m 0 c).arrAt_eq_of_cover 3 (linear (m ((c : Thread nD τ).loc main_arg0)) (m ((c : Thread nD τ).loc main_arg1)) (m ((c : Thread nD τ).loc main_arg2))) (fun t _ => flushed_eq m c t) cover

/-- The kernel's run, read: it ends with the result at the linear map of the arguments and the arguments unchanged. -/
theorem run : θ_run defs (onTc (τ := τ) (main (F := Ideal))) ⟨m, fun _ => 0, ρ⟩ fun r => ∀ c : Dev nD,
      r.2.mem ((c : Thread nD τ).loc main_v2) = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  A linear layer whose weights are stored as one sign per entry and one scale per group of 128 consecutive input
  features of a row:  y(b, o) = Σ_k x(b, k) · (sign(o, k) · scale(32 · o + k / 128)),  over 4096 input features,
  32 rows of `x` and 11008 output rows (Proof/Spec.lean states it as one function of the three arrays).

  The kernel computes it 256 output rows at a time on a grid of 43 points: each point turns its tile of signs into
  reals, multiplies every group by its scale and contracts the tile with `x` (Proof/TileValue.lean: what one point
  stores; Proof/WholeValue.lean: the 43 column blocks it writes back tile the result). The reference forms the
  whole dequantized matrix, transposes it and contracts it with `x` (Proof/RefLinear.lean). On extended reals the
  changes of number format are the identity and the integer signs are the same reals on both sides, so both end
  with the same sums of the same products, term by term: no law that needs finite entries is used, and the
  precondition is never opened. The two programs' runs and their frames are the generated ones; nothing was
  rewritten when the kernel was idealized, so that conjunct is trivial.
-/
import proofs.«118095_j47141561041541_2_alg».proof.Defs
import proofs.«118095_j47141561041541_2_alg».proof.Proof.Gen.Kernel
import proofs.«118095_j47141561041541_2_alg».proof.Proof.Gen.Kernel.Skeleton
import proofs.«118095_j47141561041541_2_alg».proof.Proof.Gen.Kernel.Launch
import proofs.«118095_j47141561041541_2_alg».proof.Proof.Gen.Kernel.Points
import proofs.«118095_j47141561041541_2_alg».proof.Proof.Gen.Kernel.Frame
import proofs.«118095_j47141561041541_2_alg».proof.Proof.Gen.KernelIdeal
import proofs.«118095_j47141561041541_2_alg».proof.Proof.Gen.KernelIdeal.Skeleton
import proofs.«118095_j47141561041541_2_alg».proof.Proof.Gen.KernelIdeal.Launch
import proofs.«118095_j47141561041541_2_alg».proof.Proof.Gen.KernelIdeal.Points
import proofs.«118095_j47141561041541_2_alg».proof.Proof.Gen.KernelIdeal.Frame
import proofs.«118095_j47141561041541_2_alg».proof.Proof.Gen.ReferenceIdeal
import proofs.«118095_j47141561041541_2_alg».proof.Proof.Gen.Pre_finite_inputs
import proofs.«118095_j47141561041541_2_alg».proof.Proof.Gen.KernelIdeal.Value
import proofs.«118095_j47141561041541_2_alg».proof.Proof.Gen.ReferenceIdeal.Run
import proofs.«118095_j47141561041541_2_alg».proof.Proof.Gen.ReferenceIdeal.Read
import proofs.«118095_j47141561041541_2_alg».proof.Proof.Spec
import proofs.«118095_j47141561041541_2_alg».proof.Proof.RefLinear
import proofs.«118095_j47141561041541_2_alg».proof.Proof.TileValue
import proofs.«118095_j47141561041541_2_alg».proof.Proof.WholeValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading on extended reals. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel ends with its result at the linear map of its
    arguments and the reference with its result at the same linear map of its own, which are the kernel's. -/
theorem algebraic : Cert.algebraic_KernelIdeal_ReferenceIdeal := by
  intro m ρ m' ρ' _ hagree
  refine ⟨fun c => Cert.BitLinear.linear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
